-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10240 : Shape := ⟨2, ![1, 10240]⟩
abbrev S10240x4 : Shape := ⟨2, ![10240, 4]⟩
abbrev S1x10240x4 : Shape := ⟨3, ![1, 10240, 4]⟩
abbrev S_ : Shape := ⟨0, ![]⟩

class Facts : Prop where
  bitsLt_bf16_f32 : FTy.bits .bf16 < FTy.bits .f32
  bcast_S_S1x10240 : S_.BroadcastsInDim S1x10240 (![] : Fin 0 → Fin S1x10240.rank)
  reducesTo_S1x10240_S_d0_1 : S1x10240.ReducesTo [0, 1] S_
  h_S_ : 0 < S_.numel
  bcast_S_S10240x4 : S_.BroadcastsInDim S10240x4 (![] : Fin 0 → Fin S10240x4.rank)
  reducesTo_S10240x4_S_d0_1 : S10240x4.ReducesTo [0, 1] S_
  bcast_S_S1x10240x4 : S_.BroadcastsInDim S1x10240x4 (![] : Fin 0 → Fin S1x10240x4.rank)
  reducesTo_S1x10240x4_S_d0_1_2 : S1x10240x4.ReducesTo [0, 1, 2] S_

variable [Facts]

def fn {F : FTy → Type} [FloatOps F] (main_arg0 : FVec F S1x10240 .bf16) (main_arg1 : FVec F S10240x4 .bf16) (main_arg2 : FVec F S1x10240x4 .bf16) : IVec S_ 1 :=
  let main_v0 : FVec F S1x10240 .f32 := (extf .f32 · bitsLt_bf16_f32) main_arg0
  let main_v1 : FVec F S1x10240 .f32 := Host.absf main_v0
  let main_cst : FVec F S_ .f32 := constant S_ .f32 0x7F800000#32
  let main_v2 : FVec F S1x10240 .f32 := broadcastInDim S1x10240 ![] bcast_S_S1x10240 main_cst
  let main_v3 : IVec S1x10240 1 := cmpf .olt main_v1 main_v2
  let main_c : IVec S_ 1 := constantI S_ 1 1#1
  let main_v4 : IVec S_ 1 := (fun x v => Host.reduce IntOp.andi x v reducesTo_S1x10240_S_d0_1 h_S_) main_v3 main_c
  let main_v5 : FVec F S10240x4 .f32 := (extf .f32 · bitsLt_bf16_f32) main_arg1
  let main_v6 : FVec F S10240x4 .f32 := Host.absf main_v5
  let main_cst_0 : FVec F S_ .f32 := constant S_ .f32 0x7F800000#32
  let main_v7 : FVec F S10240x4 .f32 := broadcastInDim S10240x4 ![] bcast_S_S10240x4 main_cst_0
  let main_v8 : IVec S10240x4 1 := cmpf .olt main_v6 main_v7
  let main_c_1 : IVec S_ 1 := constantI S_ 1 1#1
  let main_v9 : IVec S_ 1 := (fun x v => Host.reduce IntOp.andi x v reducesTo_S10240x4_S_d0_1 h_S_) main_v8 main_c_1
  let main_v10 : IVec S_ 1 := andi main_v4 main_v9
  let main_v11 : FVec F S1x10240x4 .f32 := (extf .f32 · bitsLt_bf16_f32) main_arg2
  let main_v12 : FVec F S1x10240x4 .f32 := Host.absf main_v11
  let main_cst_2 : FVec F S_ .f32 := constant S_ .f32 0x7F800000#32
  let main_v13 : FVec F S1x10240x4 .f32 := broadcastInDim S1x10240x4 ![] bcast_S_S1x10240x4 main_cst_2
  let main_v14 : IVec S1x10240x4 1 := cmpf .olt main_v12 main_v13
  let main_c_3 : IVec S_ 1 := constantI S_ 1 1#1
  let main_v15 : IVec S_ 1 := (fun x v => Host.reduce IntOp.andi x v reducesTo_S1x10240x4_S_d0_1_2 h_S_) main_v14 main_c_3
  let main_v16 : IVec S_ 1 := andi main_v10 main_v15
  main_v16
-- ==== Kernel.lean ====
abbrev S1x10240 : Shape := ⟨2, ![1, 10240]⟩
abbrev S10240x4 : Shape := ⟨2, ![10240, 4]⟩
abbrev S1x10240x4 : Shape := ⟨3, ![1, 10240, 4]⟩
abbrev S4x10240 : Shape := ⟨2, ![4, 10240]⟩
abbrev S1x5120 : Shape := ⟨2, ![1, 5120]⟩
abbrev S4x5120 : Shape := ⟨2, ![4, 5120]⟩

abbrev nBuf : Space → Nat
  | .hbm => 7
  | .vmem => 8
  | .smem => 0
  | _ => 0

abbrev bufTy : (tb : Table) → Fin (tcTables nBuf tb) → BufTy
  | .hbm, ⟨0, _⟩ => ⟨S1x10240, .bf16⟩
  | .hbm, ⟨1, _⟩ => ⟨S10240x4, .bf16⟩
  | .hbm, ⟨2, _⟩ => ⟨S1x10240x4, .bf16⟩
  | .hbm, ⟨3, _⟩ => ⟨S4x10240, .bf16⟩
  | .hbm, ⟨4, _⟩ => ⟨S10240x4, .bf16⟩
  | .hbm, ⟨5, _⟩ => ⟨S4x10240, .bf16⟩
  | .hbm, ⟨6, _⟩ => ⟨S1x10240, .bf16⟩
  | .local _ .vmem, ⟨0, _⟩ => ⟨S1x5120, .bf16⟩
  | .local _ .vmem, ⟨1, _⟩ => ⟨S1x5120, .bf16⟩
  | .local _ .vmem, ⟨2, _⟩ => ⟨S4x5120, .bf16⟩
  | .local _ .vmem, ⟨3, _⟩ => ⟨S4x5120, .bf16⟩
  | .local _ .vmem, ⟨4, _⟩ => ⟨S4x5120, .bf16⟩
  | .local _ .vmem, ⟨5, _⟩ => ⟨S4x5120, .bf16⟩
  | .local _ .vmem, ⟨6, _⟩ => ⟨S1x5120, .bf16⟩
  | .local _ .vmem, ⟨7, _⟩ => ⟨S1x5120, .bf16⟩
  | _, _ => ⟨S1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S10240x4_S4x10240_1_0 : S10240x4.Transposes [1, 0] S4x10240
  shapeCasts_S1x10240x4_S10240x4 : S1x10240x4.ShapeCasts S10240x4
  inb_S1x5120_S1x5120_0_0 : ∀ a, (![0, 0] : Fin 2 → Nat) a + S1x5120.size a ≤ S1x5120.size a
  h_S1x5120 : 0 < S1x5120.numel
  bitsLt_bf16_f32 : FTy.bits .bf16 < FTy.bits .f32
  inb_S4x5120_S4x5120_0_0 : ∀ a, (![0, 0] : Fin 2 → Nat) a + S4x5120.size a ≤ S4x5120.size a
  h_S4x5120 : 0 < S4x5120.numel
  shapeCasts_S4x5120_S4x5120 : S4x5120.ShapeCasts S4x5120
  slices_S4x5120_o3_0_S1x5120 : S4x5120.Slices ![3, 0] S1x5120
  slices_S4x5120_o1_0_S1x5120 : S4x5120.Slices ![1, 0] S1x5120
  slices_S4x5120_o0_0_S1x5120 : S4x5120.Slices ![0, 0] S1x5120
  slices_S4x5120_o2_0_S1x5120 : S4x5120.Slices ![2, 0] S1x5120
  packedbf16_S1x5120_S1x5120_0_0 : (Rect.unit (s := S1x5120) ![0, 0] S1x5120.size inb_S1x5120_S1x5120_0_0).PackedRows (EltTy.packing .bf16)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5120.size a ≤ S1x10240.size a
  hwx0_0 : ∀ i : grid0.Coords, EltTy.bits .bf16 = 32 ∨ (Rect.block (s := S1x10240) S1x5120.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x5120.size a ≤ S4x10240.size a
  hwx0_1 : ∀ i : grid0.Coords, EltTy.bits .bf16 = 32 ∨ (Rect.block (s := S4x10240) S4x5120.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x5120.size a ≤ S4x10240.size a
  hwx0_2 : ∀ i : grid0.Coords, EltTy.bits .bf16 = 32 ∨ (Rect.block (s := S4x10240) S4x5120.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5120.size a ≤ S1x10240.size a
  hwx0_3 : ∀ i : grid0.Coords, EltTy.bits .bf16 = 32 ∨ (Rect.block (s := S1x10240) S1x5120.size (cc0_transform_3 i) (hinb0_3 i)).WholeWords (EltTy.packing .bf16)

variable [Facts₀]

abbrev win0_0 : Pipeline.Window sig grid0 :=
  Pipeline.Window.ofSpec (Memref.whole main_arg0) S1x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x5120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x5120.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x10240 : Shape := ⟨2, ![1, 10240]⟩
abbrev S10240x4 : Shape := ⟨2, ![10240, 4]⟩
abbrev S1x10240x4 : Shape := ⟨3, ![1, 10240, 4]⟩
abbrev S1x10240x3 : Shape := ⟨3, ![1, 10240, 3]⟩
abbrev S1x10240x1 : Shape := ⟨3, ![1, 10240, 1]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1x10240, .bf16⟩
  | .hbm, ⟨1, _⟩ => ⟨S10240x4, .bf16⟩
  | .hbm, ⟨2, _⟩ => ⟨S1x10240x4, .bf16⟩
  | .hbm, ⟨3, _⟩ => ⟨S1x10240x3, .bf16⟩
  | .hbm, ⟨4, _⟩ => ⟨S1x10240x1, .bf16⟩
  | .hbm, ⟨5, _⟩ => ⟨S1x10240x4, .bf16⟩
  | .hbm, ⟨6, _⟩ => ⟨S1x10240x4, .f32⟩
  | .hbm, ⟨7, _⟩ => ⟨S10240x4, .f32⟩
  | .hbm, ⟨8, _⟩ => ⟨S1x10240x4, .f32⟩
  | .hbm, ⟨9, _⟩ => ⟨S1x10240x4, .f32⟩
  | .hbm, ⟨10, _⟩ => ⟨S_, .f32⟩
  | .hbm, ⟨11, _⟩ => ⟨S1x10240, .f32⟩
  | .hbm, ⟨12, _⟩ => ⟨S1x10240, .f32⟩
  | .hbm, ⟨13, _⟩ => ⟨S1x10240, .f32⟩
  | .hbm, ⟨14, _⟩ => ⟨S_, .f32⟩
  | .hbm, ⟨15, _⟩ => ⟨S1x10240, .f32⟩
  | .hbm, ⟨16, _⟩ => ⟨S1x10240, .f32⟩
  | .hbm, ⟨17, _⟩ => ⟨S_, .f32⟩
  | .hbm, ⟨18, _⟩ => ⟨S1x10240, .f32⟩
  | .hbm, ⟨19, _⟩ => ⟨S1x10240, .f32⟩
  | .hbm, ⟨20, _⟩ => ⟨S1x10240, .f32⟩
  | .hbm, ⟨21, _⟩ => ⟨S1x10240, .bf16⟩
  | _, _ => ⟨S1x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  slices_S1x10240x4_S1x10240x3_0_0_1 : S1x10240x4.Slices ![0, 0, 1] S1x10240x3
  bcast_S1x10240_S1x10240x1_0_1 : S1x10240.BroadcastsInDim S1x10240x1 (![0, 1] : Fin 2 → Fin S1x10240x1.rank)
  concatenates_S1x10240x3_S1x10240x1_S1x10240x4_d2 : Shape.Concatenates [S1x10240x3, S1x10240x1] S1x10240x4 2
  bitsLt_bf16_f32 : FTy.bits .bf16 < FTy.bits .f32
  bcast_S10240x4_S1x10240x4_1_2 : S10240x4.BroadcastsInDim S1x10240x4 (![1, 2] : Fin 2 → Fin S1x10240x4.rank)
  reducesTo_S1x10240x4_S1x10240_d2 : S1x10240x4.ReducesTo [2] S1x10240
  h_S_ : 0 < S_.numel
  bcast_S_S1x10240 : S_.BroadcastsInDim S1x10240 (![] : Fin 0 → Fin S1x10240.rank)

variable [Facts₀]

class Facts : Prop extends Facts₀ where

variable [Facts]
-- ==== Proof.StepSpec.lean ====
/-
  One decoding step of a depthwise causal convolution with four taps, followed by the SiLU gate, as one function of
  the three argument arrays, channel by channel.

  For channel d the shifted state is (s[d,1], s[d,2], s[d,3], x[d]) and the step's pre-activation is its dot product
  with the channel's four weights,
      y d = x[d]·w[d,3] + s[d,1]·w[d,0] + s[d,2]·w[d,1] + s[d,3]·w[d,2],
  and the result is y d · σ(y d) with σ t = 1 / (1 + e^(−t)). The sum is written in the order in which the new token's
  product comes first; `zero_add_sum_four` says that the same four products summed in the state's own order from a zero
  start give the same extended real (addition of extended reals is commutative and associative, so no finiteness is
  used).
-/
import Idealize.ShloMosaic.PureOps.Ideal
import Idealize.ShloMosaic.PureOps.Ideal.Laws
import Idealize.ShloMosaic.Lib.ValueIdx

noncomputable section

open scoped BigOperators

namespace Cert.ConvStep

open Idealize.ShloMosaic Idealize.ShloMosaic.ValueIdx

/-- The 32-bit float word of 1.0 denotes the real number one. -/
theorem ofBits_one_f32 : Ideal.ofBits .f32 0x3F800000#32 = 1 := by
  simp [Ideal.ofBits, Ideal.ieee]
  rw [← EReal.coe_mul, ← EReal.coe_one]
  exact congrArg _ (by norm_num)

/-- The pre-activation of channel `d`: the new token times the last weight, plus the three kept state entries
    times the first three weights. -/
def pre (x : (⟨2, ![1, 10240]⟩ : Shape).Idx → EReal) (w : (⟨2, ![10240, 4]⟩ : Shape).Idx → EReal)
    (s : (⟨3, ![1, 10240, 4]⟩ : Shape).Idx → EReal) (d : Fin 10240) : EReal :=
  x (ix2 0 d) * w (ix2 d 3) + s (ix3 0 d 1) * w (ix2 d 0) + s (ix3 0 d 2) * w (ix2 d 1) + s (ix3 0 d 3) * w (ix2 d 2)

/-- The step's result at an index: the pre-activation of the index's channel times its logistic. -/
def step (x : (⟨2, ![1, 10240]⟩ : Shape).Idx → EReal) (w : (⟨2, ![10240, 4]⟩ : Shape).Idx → EReal)
    (s : (⟨3, ![1, 10240, 4]⟩ : Shape).Idx → EReal) : (⟨2, ![1, 10240]⟩ : Shape).Idx → EReal :=
  fun i => pre x w s (i 1) * Ideal.logistic (pre x w s (i 1))

/-- Four extended reals summed from zero in the order 0, 1, 2, 3 are the last one plus the first three in order. -/
theorem zero_add_sum_four (f : Fin 4 → EReal) : 0 + ∑ k : Fin 4, f k = f 3 + f 0 + f 1 + f 2 := by
  rw [Fin.sum_univ_four, zero_add]
  abel

end Cert.ConvStep

end
-- ==== Proof.RefRead.lean ====
/-
  The reference program, read one operation at a time, computes the convolution step of StepSpec.lean.

  The reference builds the shifted state by joining the state's last three entries with the new token along the tap
  axis, multiplies it entry by entry with the weights, sums the four products over the tap axis from a zero start, and
  gates the sum t by t · (1 / (1 + e^(−t))). Read at an index: taps 0, 1, 2 of the joined array are the state's entries
  1, 2, 3 (`joined_kept`), tap 3 is the new token (`joined_new`); the sum is the pre-activation of the index's channel
  (`sum_eq_pre`); and the spelled-out gate is the logistic (`reference_eq_step`).
-/
import proofs.«133972_j2078764171677_2_alg».proof.Proof.Gen.ReferenceIdeal.Read
import proofs.«133972_j2078764171677_2_alg».proof.Proof.StepSpec
import Idealize.ShloMosaic.Lib.Pipeline.Value
import Idealize.ShloMosaic.Lib.ValueIdx

noncomputable section

open scoped BigOperators

namespace Cert.ReferenceIdeal.StepRead

open Cert.ReferenceIdeal Cert.ReferenceIdeal.Gen Cert.ReferenceIdeal.Read Cert.ConvStep
open Idealize.ShloMosaic Idealize.ShloMosaic.ValueIdx

/-- Taps 0, 1, 2 of the joined array are entries 1, 2, 3 of the state. -/
theorem joined_kept (x0 : (⟨S1x10240, .bf16⟩ : BufTy).Contents (Elt Ideal)) (x2 : (⟨S1x10240x4, .bf16⟩ : BufTy).Contents (Elt Ideal))
    (i : S1x10240.Idx) (k : Fin 4) (hk : k.val < 3) :
    val_main_v2 (F := Ideal) x0 x2 (idx_main_v7 i k) = x2 (ix3 0 (i 1) ⟨k.val + 1, by omega⟩) := by
  have h0 : (i 0).val < 1 := (i 0).isLt
  unfold val_main_v2
  refine (concatenate_pair_apply_left (t := S1x10240x4) (s₁ := S1x10240x3) (s₂ := S1x10240x1) (2 : Fin 3) _ _
    concatenates_S1x10240x3_S1x10240x1_S1x10240x4_d2 (idx_main_v7 i k) rfl
    (ix3 (i 0) (i 1) (⟨k.val, hk⟩ : Fin 3) : S1x10240x3.Idx) (fun b => by match b with | ⟨0, _⟩ => rfl | ⟨1, _⟩ => rfl | ⟨2, _⟩ => rfl)).trans ?_
  rw [val_main_v0_apply]
  refine congrArg x2 (funext fun a => Fin.ext ?_)
  match a with
  | ⟨0, _⟩ => show (i 0).val = 0; omega
  | ⟨1, _⟩ => rfl
  | ⟨2, _⟩ => show 1 + k.val = k.val + 1; omega

/-- Tap 3 of the joined array is the new token. -/
theorem joined_new (x0 : (⟨S1x10240, .bf16⟩ : BufTy).Contents (Elt Ideal)) (x2 : (⟨S1x10240x4, .bf16⟩ : BufTy).Contents (Elt Ideal))
    (i : S1x10240.Idx) :
    val_main_v2 (F := Ideal) x0 x2 (idx_main_v7 i 3) = x0 (ix2 0 (i 1)) := by
  unfold val_main_v2
  refine (concatenate_pair_apply_right (t := S1x10240x4) (s₁ := S1x10240x3) (s₂ := S1x10240x1) (2 : Fin 3) _ _
    concatenates_S1x10240x3_S1x10240x1_S1x10240x4_d2 (idx_main_v7 i 3) rfl rfl
    (ix3 (i 0) (i 1) (0 : Fin 1) : S1x10240x1.Idx) (fun b hb => by
      match b with
      | ⟨0, _⟩ => rfl
      | ⟨1, _⟩ => rfl
      | ⟨2, _⟩ => exact absurd rfl hb) rfl).trans ?_
  rw [val_main_v1_apply]
  refine congrArg x0 (funext fun a => Fin.ext ?_)
  match a with
  | ⟨0, _⟩ => rfl
  | ⟨1, _⟩ => rfl

/-- The sum over the tap axis, from its zero start, is the pre-activation of the index's channel. -/
theorem sum_eq_pre (x0 : (⟨S1x10240, .bf16⟩ : BufTy).Contents (Elt Ideal)) (x1 : (⟨S10240x4, .bf16⟩ : BufTy).Contents (Elt Ideal))
    (x2 : (⟨S1x10240x4, .bf16⟩ : BufTy).Contents (Elt Ideal)) (i : S1x10240.Idx) :
    val_main_v7 (F := Ideal) x0 x1 x2 i = pre x0 x1 x2 (i 1) := by
  have hw : ∀ k : Fin 4, idx_main_v5 (idx_main_v7 i k) = ix2 (i 1) k := fun k =>
    funext fun a => Fin.ext (by match a with | ⟨0, _⟩ => rfl | ⟨1, _⟩ => rfl)
  rw [val_main_v7_apply, val_main_cst_apply, Ideal.ofBits_def, Ideal.ofBits_zero_f32, zero_add_sum_four]
  simp only [val_main_v6_apply, val_main_v3_apply, val_main_v5_apply, val_main_v4_apply, Ideal.mulf_def, Ideal.extf_def, hw]
  rw [joined_new, joined_kept x0 x2 i 0 (by decide), joined_kept x0 x2 i 1 (by decide), joined_kept x0 x2 i 2 (by decide)]
  rfl

/-- The reference's result is the convolution step of its three arguments. -/
theorem reference_eq_step (x0 : (⟨S1x10240, .bf16⟩ : BufTy).Contents (Elt Ideal)) (x1 : (⟨S10240x4, .bf16⟩ : BufTy).Contents (Elt Ideal))
    (x2 : (⟨S1x10240x4, .bf16⟩ : BufTy).Contents (Elt Ideal)) :
    val_main_v15 (F := Ideal) x0 x1 x2 = step x0 x1 x2 := by
  funext i
  rw [val_main_v15_apply, val_main_v14_apply, val_main_v13_apply, val_main_v12_apply, val_main_cst_1_apply, val_main_v11_apply,
    val_main_v10_apply, val_main_cst_0_apply, val_main_v9_apply, val_main_v8_apply, sum_eq_pre]
  simp only [Ideal.truncf_def, Ideal.mulf_def, Ideal.hostDivf_def, Ideal.addf_def, Ideal.hostUnary_exp_def, Ideal.hostNegf_def,
    Ideal.negf_def, Ideal.ofBits_def, ofBits_one_f32]
  rfl

end Cert.ReferenceIdeal.StepRead

end
-- ==== Proof.KernelBlocks.lean ====
/-
  The kernel's result array is the convolution step of StepSpec.lean.

  The wrapper hands the kernel the weights and the state transposed: row r, column d of the transposed weights is
  w[d,r] (`wt_apply`), and row r, column d of the transposed state is s[0,d,r], the state first flattened to
  [channels, taps] (`st_apply`). The grid has two points; point t works on channels 5120·t … 5120·t + 5119, so column q
  of a block at point t is channel 5120·t + q of its array (`chan`, `blk_x`, `blk_w`, `blk_s`). At that column the body
  multiplies the token by row 3 of the weight block and rows 1, 2, 3 of the state block by rows 0, 1, 2 of the weight block,
  adds the four products, and gates the sum by its logistic — the step's value at that channel (`body_at`). Hence what
  point t writes back is block t of the step (`flushed_eq`), the two blocks cover the result array (`cover`), and the array
  ends holding the step (`final`, `run`).
-/
import proofs.«133972_j2078764171677_2_alg».proof.Proof.Gen.KernelIdeal.Value
import proofs.«133972_j2078764171677_2_alg».proof.Proof.StepSpec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.StepBlocks

open Cert.KernelIdeal Cert.KernelIdeal.Gen Cert.KernelIdeal.Value Cert.ConvStep
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The transposed arrays the region finds -/

/-- The array window 1 stages is the transpose of the weights. -/
theorem wt_eq (c : Dev nD) : (V m c main_v0 : S4x10240.Idx → EReal)
    = transpose S4x10240 [1, 0] (m ((c : Thread nD τ).loc main_arg1)) transposes_S10240x4_S4x10240_1_0 := by
  dsimp only [Gen.V, Gen.hostOps0]; after_results <;> rfl

/-- The array window 2 stages is the transpose of the state flattened to [channels, taps]. -/
theorem st_eq (c : Dev nD) : (V m c main_v2 : S4x10240.Idx → EReal)
    = transpose S4x10240 [1, 0] (shapeCast S10240x4 (m ((c : Thread nD τ).loc main_arg2)) shapeCasts_S1x10240x4_S10240x4)
        transposes_S10240x4_S4x10240_1_0 := by
  dsimp only [Gen.V, Gen.hostOps0]; after_results <;> rfl

/-- Row `r`, column `d` of the transposed weights is weight `r` of channel `d`. -/
theorem wt_apply (c : Dev nD) (r : Fin 4) (d : Fin 10240) :
    (V m c main_v0 : S4x10240.Idx → EReal) (ix2 r d) = (m ((c : Thread nD τ).loc main_arg1) : S10240x4.Idx → EReal) (ix2 d r) := by
  rw [wt_eq]
  exact transpose_apply _ _ _ (ix2 r d) (ix2 d r) (fun b => by match b with | ⟨0, _⟩ => rfl | ⟨1, _⟩ => rfl)

/-- Row `r`, column `d` of the transposed state is state entry `r` of channel `d`. -/
theorem st_apply (c : Dev nD) (r : Fin 4) (d : Fin 10240) :
    (V m c main_v2 : S4x10240.Idx → EReal) (ix2 r d) = (m ((c : Thread nD τ).loc main_arg2) : S1x10240x4.Idx → EReal) (ix3 0 d r) := by
  rw [st_eq]
  refine (transpose_apply _ _ _ (ix2 r d) (ix2 d r) (fun b => by match b with | ⟨0, _⟩ => rfl | ⟨1, _⟩ => rfl)).trans ?_
  exact shapeCast_apply _ _ (ix2 d r) (ix3 0 d r) (by
    rw [Shape.rowMajor_val_three, Shape.rowMajor_val_two]
    show (0 * 10240 + d.val) * 4 + r.val = d.val * 4 + r.val
    omega)

/-! ## Blocks -/

/-- Every window's block index at point `t` is `(0, t)`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Column `q` of a block at point `t` is channel `5120·t + q`. -/
def chan (t : Fin cfg0.N) (q : Fin 5120) : Fin 10240 :=
  ⟨t.val * 5120 + q.val, by have := t.isLt; have hN : cfg0.N = 2 := N_0; have := q.isLt; omega⟩

/-- The token block at point `t`, at column `q`, is the token of channel `chan t q`. -/
theorem blk_x (c : Dev nD) (t : Fin cfg0.N) (y : S1x5120.Idx) (q : Fin 5120) (hq : (y 1).val = q.val) :
    (iblk m c 0 t : S1x5120.Idx → EReal) y = (m ((c : Thread nD τ).loc main_arg0) : S1x10240.Idx → EReal) (ix2 0 (chan t q)) := by
  obtain ⟨e0, e1, -⟩ := idx_facts t
  have hy0 : (y 0).val < 1 := (y 0).isLt
  unfold iblk
  rw [View.read_apply]
  show V m c main_arg0 _ = _
  refine (congrFun (V_main_arg0 m c) _).trans (congrArg _ (funext fun a => Fin.ext ?_))
  match a with
  | ⟨0, _⟩ => show win0_0.index t (0 : Fin 2) * 1 + 1 * (y 0).val = 0; rw [e0]; omega
  | ⟨1, _⟩ => show win0_0.index t (1 : Fin 2) * 5120 + 1 * (y 1).val = t.val * 5120 + q.val; rw [e1, hq]; omega

/-- The weight block at point `t`, at row `r` and column `q`, is weight `r` of channel `chan t q`. -/
theorem blk_w (c : Dev nD) (t : Fin cfg0.N) (r : Fin 4) (y : S4x5120.Idx) (q : Fin 5120) (hr : (y 0).val = r.val)
    (hq : (y 1).val = q.val) :
    (iblk m c 1 t : S4x5120.Idx → EReal) y = (m ((c : Thread nD τ).loc main_arg1) : S10240x4.Idx → EReal) (ix2 (chan t q) r) := by
  obtain ⟨-, -, e0, e1, -⟩ := idx_facts t
  unfold iblk
  rw [View.read_apply]
  show (V m c main_v0 : S4x10240.Idx → EReal) _ = _
  refine (congrArg _ (funext fun a => Fin.ext ?_)).trans (wt_apply m c r (chan t q))
  match a with
  | ⟨0, _⟩ => show win0_1.index t (0 : Fin 2) * 4 + 1 * (y 0).val = r.val; rw [e0, hr]; omega
  | ⟨1, _⟩ => show win0_1.index t (1 : Fin 2) * 5120 + 1 * (y 1).val = t.val * 5120 + q.val; rw [e1, hq]; omega

/-- The state block at point `t`, at row `r` and column `q`, is state entry `r` of channel `chan t q`. -/
theorem blk_s (c : Dev nD) (t : Fin cfg0.N) (r : Fin 4) (y : S4x5120.Idx) (q : Fin 5120) (hr : (y 0).val = r.val)
    (hq : (y 1).val = q.val) :
    (iblk m c 2 t : S4x5120.Idx → EReal) y = (m ((c : Thread nD τ).loc main_arg2) : S1x10240x4.Idx → EReal) (ix3 0 (chan t q) r) := by
  obtain ⟨-, -, -, -, e0, e1, -⟩ := idx_facts t
  unfold iblk
  rw [View.read_apply]
  show (V m c main_v2 : S4x10240.Idx → EReal) _ = _
  refine (congrArg _ (funext fun a => Fin.ext ?_)).trans (st_apply m c r (chan t q))
  match a with
  | ⟨0, _⟩ => show win0_2.index t (0 : Fin 2) * 4 + 1 * (y 0).val = r.val; rw [e0, hr]; omega
  | ⟨1, _⟩ => show win0_2.index t (1 : Fin 2) * 5120 + 1 * (y 1).val = t.val * 5120 + q.val; rw [e1, hq]; omega

/-! ## The body at a column -/

/-- The body's block, at column `y 1`, from any three loaded blocks that hold channel `d`'s token, weights and state
    entries at that column: the step's value at channel `d`. -/
theorem body_at (P0 : Vec Ideal S1x5120 .bf16) (P1 P2 : Vec Ideal S4x5120 .bf16)
    (x : (⟨2, ![1, 10240]⟩ : Shape).Idx → EReal) (w : (⟨2, ![10240, 4]⟩ : Shape).Idx → EReal)
    (s : (⟨3, ![1, 10240, 4]⟩ : Shape).Idx → EReal) (d : Fin 10240) (y : S1x5120.Idx)
    (hx : P0 (ix3_0 y) = x (ix2 0 d))
    (hw : ∀ (r : Fin 4) (j : S4x5120.Idx), (j 0).val = r.val → (j 1).val = (y 1).val → P1 j = w (ix2 d r))
    (hs : ∀ (r : Fin 4) (j : S4x5120.Idx), (j 0).val = r.val → (j 1).val = (y 1).val → P2 j = s (ix3 0 d r)) :
    E3 (F := Ideal) P0 P1 P2 y = pre x w s d * Ideal.logistic (pre x w s d) := by
  show (P0 (ix3_0 y) * P1 (ix3_1 y) + P2 (ix3_2 y) * P1 (ix3_3 y) + P2 (ix3_4 y) * P1 (ix3_5 y) + P2 (ix3_6 y) * P1 (ix3_7 y))
      * Ideal.logistic (P0 (ix3_0 y) * P1 (ix3_1 y) + P2 (ix3_2 y) * P1 (ix3_3 y) + P2 (ix3_4 y) * P1 (ix3_5 y) + P2 (ix3_6 y) * P1 (ix3_7 y)) = _
  rw [hx, hw 3 (ix3_1 y) rfl rfl, hs 1 (ix3_2 y) rfl rfl, hw 0 (ix3_3 y) rfl rfl, hs 2 (ix3_4 y) rfl rfl, hw 1 (ix3_5 y) rfl rfl,
    hs 3 (ix3_6 y) rfl rfl, hw 2 (ix3_7 y) rfl rfl]
  rfl

/-! ## From blocks to the array -/

theorem hz : (![0, 0] : Fin 2 → Nat) = fun _ => 0 := funext fun a => by fin_cases a <;> rfl

/-- What point `t` writes back is block `t` of the step of the three argument arrays. -/
theorem flushed_eq (c : Dev nD) (t : Fin cfg0.N) :
    (dats m 0 c).flushed 3 t = ((cfg0.win 3).blk t).view.read (Elt Ideal)
      (step (m ((c : Thread nD τ).loc main_arg0)) (m ((c : Thread nD τ).loc main_arg1)) (m ((c : Thread nD τ).loc main_arg2))) := by
  obtain ⟨-, -, -, -, -, -, e0, e1⟩ := idx_facts t
  rw [Value.flushed3]
  funext y
  show out0_3 (iblk m c 0 t) (iblk m c 1 t) (iblk m c 2 t) y = step _ _ _ (((cfg0.win 3).blk t).view.emb y)
  unfold out0_3
  refine (Value.canon3_eq _ _ _ y).trans ?_
  refine (body_at _ _ _ (m ((c : Thread nD τ).loc main_arg0)) (m ((c : Thread nD τ).loc main_arg1)) (m ((c : Thread nD τ).loc main_arg2))
    (chan t (y 1)) y ?_ ?_ ?_).trans ?_
  · rw [View.ld_unit_zero (S := S1x5120) hz]; exact blk_x m c t (ix3_0 y) (y 1) rfl
  · intro r j h0 h1; rw [View.ld_unit_zero (S := S4x5120) hz]; exact blk_w m c t r j (y 1) h0 h1
  · intro r j h0 h1; rw [View.ld_unit_zero (S := S4x5120) hz]; exact blk_s m c t r j (y 1) h0 h1
  · have hc : ((cfg0.win 3).blk t).view.emb y 1 = chan t (y 1) := Fin.ext (by
      show win0_3.index t (1 : Fin 2) * 5120 + 1 * (y 1).val = t.val * 5120 + (y 1).val
      rw [e1]; omega)
    show _ = pre _ _ _ (((cfg0.win 3).blk t).view.emb y 1) * Ideal.logistic (pre _ _ _ (((cfg0.win 3).blk t).view.emb y 1))
    rw [hc]

/-- An index of the result array is in point `t`'s block iff each coordinate is in the block's range on its axis. -/
theorem mem_blk (t : Fin cfg0.N) (i : S1x10240.Idx) :
    i ∈ ((cfg0.win 3).blk t).view.set ↔ ∀ a : Fin 2, win0_3.index t a * S1x5120.size a ≤ (i a).val ∧ (i a).val < win0_3.index t a * S1x5120.size a + S1x5120.size a := by
  show i ∈ ((View.whole main_v3).slice (win0_3.rect t)).set ↔ _
  rw [View.set_slice_whole, Rect.mem_set_unit]
  exact Iff.rfl

/-- Channel `d` lies in the block of point `d / 5120`: the two blocks cover the result array. -/
theorem cover (i : S1x10240.Idx) : ∃ t : Fin cfg0.N, (cfg0.win 3).flush t = true ∧ i ∈ ((cfg0.win 3).blk t).view.set := by
  have h0 : (i 0).val < 1 := (i 0).isLt
  have h1 : (i 1).val < 10240 := (i 1).isLt
  have hN : cfg0.N = 2 := N_0
  have ht : (i 1).val / 5120 < cfg0.N := by rw [hN]; omega
  obtain ⟨-, -, -, -, -, -, e0, e1⟩ := idx_facts ⟨(i 1).val / 5120, ht⟩
  refine ⟨⟨(i 1).val / 5120, ht⟩, flush0_3 _, ?_⟩
  rw [mem_blk]
  intro a
  match a with
  | ⟨0, _⟩ =>
    show win0_3.index ⟨(i 1).val / 5120, ht⟩ (0 : Fin 2) * 1 ≤ (i 0).val ∧ (i 0).val < win0_3.index ⟨(i 1).val / 5120, ht⟩ (0 : Fin 2) * 1 + 1
    rw [e0]; omega
  | ⟨1, _⟩ =>
    show win0_3.index ⟨(i 1).val / 5120, ht⟩ (1 : Fin 2) * 5120 ≤ (i 1).val ∧ (i 1).val < win0_3.index ⟨(i 1).val / 5120, ht⟩ (1 : Fin 2) * 5120 + 5120
    rw [e1]; show (i 1).val / 5120 * 5120 ≤ (i 1).val ∧ (i 1).val < (i 1).val / 5120 * 5120 + 5120; omega

/-- After the run the result array holds the step of the three argument arrays. -/
theorem final (c : Dev nD) : (dats m 0 c).arrAt 3 cfg0.N
    = step (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: it terminates with the result array at the step of the arguments, and the arguments unchanged. -/
theorem run : θ_run defs (onTc (τ := τ) (main (F := Ideal))) ⟨m, fun _ => 0, ρ⟩ fun r => ∀ c : Dev nD,
      r.2.mem ((c : Thread nD τ).loc main_v3)
        = step (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.StepBlocks

end
-- ==== Proof.lean ====
/-
  The claims: the kernel and the reference both compute one decoding step of a four-tap depthwise causal convolution
  followed by the SiLU gate.

  At the ideal values the kernel's result array ends holding `Cert.ConvStep.step` of the three argument arrays
  (KernelBlocks.lean), and the reference's result is the same function of them (RefRead.lean): per channel the kernel adds the
  new token's product first and the three kept state entries' products after it, the reference sums the same four products
  in the state's order from zero, and addition of extended reals is commutative and associative; the reference's spelled-out
  gate t · (1 / (1 + e^(−t))) is the kernel's t · logistic t. The idealization rewrote nothing, so `preserves` has no
  conjunct. The frames of the two kernels are the generated ones; the reference's frame is its run with the result dropped.
-/
import proofs.«133972_j2078764171677_2_alg».proof.Defs
import proofs.«133972_j2078764171677_2_alg».proof.Proof.Gen.Kernel
import proofs.«133972_j2078764171677_2_alg».proof.Proof.Gen.Kernel.Skeleton
import proofs.«133972_j2078764171677_2_alg».proof.Proof.Gen.Kernel.Launch
import proofs.«133972_j2078764171677_2_alg».proof.Proof.Gen.Kernel.Points
import proofs.«133972_j2078764171677_2_alg».proof.Proof.Gen.Kernel.Frame
import proofs.«133972_j2078764171677_2_alg».proof.Proof.Gen.KernelIdeal
import proofs.«133972_j2078764171677_2_alg».proof.Proof.Gen.KernelIdeal.Skeleton
import proofs.«133972_j2078764171677_2_alg».proof.Proof.Gen.KernelIdeal.Launch
import proofs.«133972_j2078764171677_2_alg».proof.Proof.Gen.KernelIdeal.Points
import proofs.«133972_j2078764171677_2_alg».proof.Proof.Gen.KernelIdeal.Frame
import proofs.«133972_j2078764171677_2_alg».proof.Proof.Gen.ReferenceIdeal
import proofs.«133972_j2078764171677_2_alg».proof.Proof.Gen.Pre_finite_inputs
import proofs.«133972_j2078764171677_2_alg».proof.Proof.Gen.KernelIdeal.Value
import proofs.«133972_j2078764171677_2_alg».proof.Proof.Gen.ReferenceIdeal.Run
import proofs.«133972_j2078764171677_2_alg».proof.Proof.Gen.ReferenceIdeal.Read
import proofs.«133972_j2078764171677_2_alg».proof.Proof.StepSpec
import proofs.«133972_j2078764171677_2_alg».proof.Proof.RefRead
import proofs.«133972_j2078764171677_2_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- The idealized kernel runs and leaves its arguments unchanged. -/
theorem frame_kernelIdeal : @Cert.frame_KernelIdeal Cert.KernelIdeal.Gen.facts Cert.Pre_finite_inputs.Gen.facts :=
  fun m ρ _ => Cert.KernelIdeal.Gen.frame m ρ

/-- The reference runs and leaves its arguments unchanged: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the three arguments both programs end with the step of the arguments in their result. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.StepBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.StepRead.reference_eq_step, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
